-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256 .f32) (main_arg5 : FVec F S256x64 .f32) (main_arg6 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : FVec F S256x64 .f32) (main_arg6 : FVec F S64 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S850000x256 : Shape := ⟨2, ![850000, 256]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 81
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x256, .f32⟩
  | .hbm, ⟨75, _⟩ => ⟨S_, .f32⟩
  | .hbm, ⟨76, _⟩ => ⟨S50000x256, .f32⟩
  | .hbm, ⟨77, _⟩ => ⟨S850000x1, .i32⟩
  | .hbm, ⟨78, _⟩ => ⟨S50000x256, .f32⟩
  | .hbm, ⟨79, _⟩ => ⟨S1x64, .f32⟩
  | .hbm, ⟨80, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x1, .f32⟩
  | .local _ .vmem, ⟨11, _⟩ => ⟨S2000x1, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x1, .f32⟩
  | .local _ .vmem, ⟨19, _⟩ => ⟨S2000x1, .f32⟩
  | .local _ .vmem, ⟨20, _⟩ => ⟨S256x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S50000x256 : Shape := ⟨2, ![50000, 256]⟩
abbrev S1x256 : Shape := ⟨2, ![1, 256]⟩
abbrev S850000x256 : Shape := ⟨2, ![850000, 256]⟩
abbrev S50000x64 : Shape := ⟨2, ![50000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S850000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x256, .f32⟩
  | .hbm, ⟨89, _⟩ => ⟨S_, .f32⟩
  | .hbm, ⟨90, _⟩ => ⟨S50000x256, .f32⟩
  | .hbm, ⟨91, _⟩ => ⟨S850000x1, .i32⟩
  | .hbm, ⟨92, _⟩ => ⟨S50000x256, .f32⟩
  | .hbm, ⟨93, _⟩ => ⟨S50000x256, .f32⟩
  | .hbm, ⟨94, _⟩ => ⟨S50000x256, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x64_S50000x64_1_0_0_1_n_n_wf : DotDims.WF S50000x256 S256x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The tiled program's run, with its result named.

  The program is three launches of the layer kernel among stretches of host operations.  Its run is followed as a
  chain of six segments; the contents of every buffer at each boundary are a fold through the program from the
  launch memory: a host stretch applies its operations, a launch leaves each of its arrays at what the write-backs
  of its grid points make of it and every other buffer as it was.  At the end every buffer that outlives the
  launches holds the last boundary's contents.  The frame statement keeps of this only that the argument arrays end as
  launched; here the same chain is read once more, keeping also what the result buffer holds: the last boundary's
  contents at the result, which the value proof then opens.
-/
import proofs.«162387_j47571057770576_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.GcnRun

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.Dense.lean ====
/-
  One layer of the network, as a function of whole arrays, entry by entry.

  A layer takes the aggregated features `M` (one row per node), a per-node scale `nd` (a one-column array), the
  weights `W` and the bias `b`.  Its value at node `p` and output feature `q` is

      Σ_k (M (p, k) · nd (p, 0)) · W (k, q)  +  b (q),

  and the layers with a rectifier take the maximum of that with zero.  Two programs compute it.  The tiled program
  works on a block of rows: it scales the block, multiplies by the weights into a zero accumulator (the change to a
  narrower float format is the identity on the extended reals), adds the bias row spread over the block's rows, and
  takes the maximum with a splat of zero.  The plain program scales the whole array by the column spread over the
  feature axis, contracts with the weights, adds the bias spread over the rows, and takes the maximum with a spread
  zero.  Read at an entry both are the expression above: nothing but the order in which layout operations are
  applied differs, and no law of arithmetic is used, so no finiteness is needed.
-/
import Idealize.ShloMosaic.Lib.Pipeline.Value
import Idealize.ShloMosaic.Lib.ValueIdx
import Idealize.ShloMosaic.PureOps.Ideal.Laws
import proofs.«162387_j47571057770576_1_alg».proof.Proof.LibPlainDot
import proofs.«162387_j47571057770576_1_alg».proof.Proof.LibKeepdims
import proofs.«162387_j47571057770576_1_alg».proof.Proof.LibRowLayout

noncomputable section

open scoped BigOperators

namespace Cert.Gcn

open Idealize.ShloMosaic Idealize.ShloMosaic.ValueIdx Cert.LibPlainDot Cert.LibKeepdims

export Cert.LibRowLayout (broadcastTo_1b_ab_apply shapeCast_b_1b_apply)

variable {A K B : Nat}

/-- The affine part of a layer at entry `(p, q)`: the scaled row `p` of `M` against column `q` of `W`, plus `b q`. -/
def affineAt (M : (⟨2, ![A, K]⟩ : Shape).Idx → EReal) (nd : (⟨2, ![A, 1]⟩ : Shape).Idx → EReal)
    (W : (⟨2, ![K, B]⟩ : Shape).Idx → EReal) (bq : EReal) (p : Fin A) (q : Fin B) : EReal :=
  (∑ k : Fin K, (M (ix2 p k) * nd (ix2 p (0 : Fin 1))) * W (ix2 k q)) + bq

/-- A layer without rectifier, the bias a vector `[B]`. -/
def affine (M : (⟨2, ![A, K]⟩ : Shape).Idx → EReal) (nd : (⟨2, ![A, 1]⟩ : Shape).Idx → EReal)
    (W : (⟨2, ![K, B]⟩ : Shape).Idx → EReal) (b : (⟨1, ![B]⟩ : Shape).Idx → EReal) : (⟨2, ![A, B]⟩ : Shape).Idx → EReal :=
  fun i => affineAt M nd W (b (ix1 (i 1))) (i 0) (i 1)

/-- A layer with rectifier: the maximum of the affine part with the zero word's value. -/
def affineRelu (M : (⟨2, ![A, K]⟩ : Shape).Idx → EReal) (nd : (⟨2, ![A, 1]⟩ : Shape).Idx → EReal)
    (W : (⟨2, ![K, B]⟩ : Shape).Idx → EReal) (b : (⟨1, ![B]⟩ : Shape).Idx → EReal) : (⟨2, ![A, B]⟩ : Shape).Idx → EReal :=
  fun i => max (affine M nd W b i) (Ideal.ofBits .f32 0x00000000#32)

/-- The tiled program's block computation (scale, narrow, multiply into zero, add the bias row), read at `(p, q)`. -/
theorem block_affine_apply {D : DotDims ⟨2, ![A, K]⟩ ⟨2, ![K, B]⟩ ⟨2, ![A, B]⟩} (hD : Plain D)
    (x0 : FVec Ideal ⟨2, ![A, K]⟩ .f32) (x1 : FVec Ideal ⟨2, ![A, 1]⟩ .f32) (x2 : FVec Ideal ⟨2, ![K, B]⟩ .f32)
    (x3 : FVec Ideal ⟨2, ![1, B]⟩ .f32)
    (h0 : (⟨2, ![A, K]⟩ : Shape).ShapeCasts ⟨2, ![A, K]⟩) (h1 : (⟨2, ![A, 1]⟩ : Shape).ShapeCasts ⟨2, ![A, 1]⟩)
    (hb1 : (⟨2, ![A, 1]⟩ : Shape).Broadcasts ⟨2, ![A, K]⟩) (ht : FTy.bf16.bits < FTy.f32.bits)
    (h3 : (⟨2, ![1, B]⟩ : Shape).ShapeCasts ⟨2, ![1, B]⟩) (hb3 : (⟨2, ![1, B]⟩ : Shape).Broadcasts ⟨2, ![A, B]⟩)
    (p : Fin A) (q : Fin B) :
    addf (matmul D none (truncf .bf16 (mulf (shapeCast ⟨2, ![A, K]⟩ x0 h0) (broadcastTo ⟨2, ![A, K]⟩ (shapeCast ⟨2, ![A, 1]⟩ x1 h1) hb1)) ht)
        (truncf .bf16 x2 ht) (constant ⟨2, ![A, B]⟩ .f32 0x00000000#32))
      (broadcastTo ⟨2, ![A, B]⟩ (shapeCast ⟨2, ![1, B]⟩ x3 h3) hb3) (ix2 p q)
      = affineAt x0 x1 x2 (x3 (ix2 (0 : Fin 1) q)) p q := by
  rw [addf_apply, shapeCast_self, shapeCast_self, shapeCast_self, broadcastTo_1b_ab_apply]
  unfold affineAt
  refine congrArg (· + x3 (ix2 (0 : Fin 1) q)) ?_
  refine (Ideal.matmul_constant_zero_apply D none (φ₁ := .bf16) (φ₂ := .bf16) _ _ (ix2 p q)).trans ?_
  refine (hD.sum_eq _ _ p q).trans ?_
  refine Finset.sum_congr rfl fun k _ => ?_
  rw [truncf_apply, truncf_apply, mulf_apply, broadcastTo_a1_ab_apply]

/-- The plain program's whole-array computation (scale by the spread column, contract, add the spread bias), read
    at `(p, q)`. -/
theorem host_affine_apply {D : DotDims ⟨2, ![A, K]⟩ ⟨2, ![K, B]⟩ ⟨2, ![A, B]⟩} (hD : Plain D)
    (M : FVec Ideal ⟨2, ![A, K]⟩ .f32) (nd : FVec Ideal ⟨2, ![A, 1]⟩ .f32) (W : FVec Ideal ⟨2, ![K, B]⟩ .f32)
    (b : FVec Ideal ⟨1, ![B]⟩ .f32)
    (hn : (⟨2, ![A, 1]⟩ : Shape).BroadcastsInDim ⟨2, ![A, K]⟩ ![0, 1])
    (hb : (⟨1, ![B]⟩ : Shape).BroadcastsInDim ⟨2, ![1, B]⟩ ![1])
    (hbb : (⟨2, ![1, B]⟩ : Shape).BroadcastsInDim ⟨2, ![A, B]⟩ ![0, 1])
    (p : Fin A) (q : Fin B) :
    addf (Host.dotGeneral D none (mulf M (broadcastInDim ⟨2, ![A, K]⟩ ![0, 1] hn nd)) W)
      (broadcastInDim ⟨2, ![A, B]⟩ ![0, 1] hbb (broadcastInDim ⟨2, ![1, B]⟩ ![1] hb b)) (ix2 p q)
      = affineAt M nd W (b (ix1 q)) p q := by
  have e1 : broadcastInDim ⟨2, ![A, B]⟩ ![0, 1] hbb (broadcastInDim ⟨2, ![1, B]⟩ ![1] hb b) (ix2 p q) = b (ix1 q) := by
    rw [broadcastInDim_apply ![0, 1] hbb _ (ix2 p q) (ix2 (0 : Fin 1) q) (fun a => by
      match a with
      | ⟨0, _⟩ => rfl
      | ⟨1, _⟩ =>
        show q.val = if B = 1 then 0 else q.val
        split
        · have := q.isLt; omega
        · rfl)]
    exact broadcastInDim_apply ![1] hb b (ix2 (0 : Fin 1) q) (ix1 q) (fun a => by
      match a with
      | ⟨0, _⟩ =>
        show q.val = if B = 1 then 0 else q.val
        split
        · have := q.isLt; omega
        · rfl)
  rw [addf_apply, e1]
  unfold affineAt
  refine congrArg (· + b (ix1 q)) ?_
  simp only [Host.dotGeneral]
  refine (Ideal.dotGeneral_apply D none _ (φ₁ := .f32) (φ₂ := .f32) _ _ (ix2 p q)).trans ?_
  refine (hD.sum_eq _ _ p q).trans ?_
  refine Finset.sum_congr rfl fun k _ => ?_
  rw [mulf_apply]
  refine congrArg (fun z => M (ix2 p k) * z * W (ix2 k q)) ?_
  exact broadcastInDim_apply ![0, 1] hn nd (ix2 p k) (ix2 p (0 : Fin 1)) (fun a => by
    match a with
    | ⟨0, _⟩ =>
      show p.val = if A = 1 then 0 else p.val
      split
      · have := p.isLt; omega
      · rfl
    | ⟨1, _⟩ => rfl)

end Cert.Gcn

end
-- ==== Proof.Launch0.lean ====
/-
  Launch 0 of the layer kernel: what its output array holds when the launch is over, as one function of the four
  arrays the launch reads, whatever those arrays hold when the launch is entered.

  The grid has 25 points.  Point `t` works on rows `2000 t … 2000 t + 1999`: its blocks of the features and of the
  per-node scale are those rows, its blocks of the weights and of the bias row are the whole arrays, and the block it
  writes back is those rows of the output.  The block computation read at an entry is the layer's expression on
  the block's rows (the lemma on block computations), and a block's row `y` is the array's row `2000 t + y`; so point
  `t` writes back rows `2000 t …` of the layer applied to the whole arrays.  Row `r` lies in the block of point
  `r / 2000`, so the 25 blocks cover the output and it ends holding the layer of the whole arrays.
-/
import proofs.«162387_j47571057770576_1_alg».proof.Proof.Gen.KernelIdeal.Frame
import proofs.«162387_j47571057770576_1_alg».proof.Proof.Dense
import Idealize.ShloMosaic.Lib.Pipeline.Value

set_option maxRecDepth 16384

noncomputable section

open scoped BigOperators

namespace Cert.KernelIdeal.GcnLaunch0

open Cert.KernelIdeal Cert.KernelIdeal.Gen Cert.Gcn Cert.LibPlainDot
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's contraction is a plain matrix product. -/
theorem plain : Plain dot_S2000x128_S128x256_S2000x256_1_0_0_1_n_n := ⟨rfl, rfl, rfl, rfl, rfl, rfl⟩

/-- The layer as a function of the launch's four arrays (the bias a one-row array). -/
def layer (M : S50000x128.Idx → EReal) (nd : S50000x1.Idx → EReal) (W : S128x256.Idx → EReal) (b : S1x256.Idx → EReal) :
    S50000x256.Idx → EReal :=
  fun i => max (affineAt M nd W (b (ix2 (0 : Fin 1) (i 1))) (i 0) (i 1)) (Ideal.ofBits .f32 0x00000000#32)

/-- The block computation read at entry `(p, q)` of the block. -/
theorem pay_apply (x0 : FVec Ideal S2000x128 .f32) (x1 : FVec Ideal S2000x1 .f32) (x2 : FVec Ideal S128x256 .f32)
    (x3 : FVec Ideal S1x256 .f32) (p : Fin 2000) (q : Fin 256) :
    k0_pay1 (F := Ideal) x0 x1 x2 x3 (ix2 p q) = max (affineAt x0 x1 x2 (x3 (ix2 (0 : Fin 1) q)) p q) (Ideal.ofBits .f32 0x00000000#32) := by
  unfold k0_pay1
  exact congrArg (fun z => max z (Ideal.ofBits .f32 0x00000000#32)) (block_affine_apply plain x0 x1 x2 x3 _ _ _ _ _ _ p q)

/-- The block computation at a block entry `y` is the layer of the whole arrays at an array entry `i`, when the blocks
    hold, at the entries the expression reads, what the arrays hold at the corresponding entries. -/
theorem point_eq (M : S50000x128.Idx → EReal) (nd : S50000x1.Idx → EReal) (W : S128x256.Idx → EReal) (b : S1x256.Idx → EReal)
    (x0 : FVec Ideal S2000x128 .f32) (x1 : FVec Ideal S2000x1 .f32) (x2 : FVec Ideal S128x256 .f32) (x3 : FVec Ideal S1x256 .f32)
    (p : Fin 2000) (q : Fin 256) (r : Fin 50000)
    (h0 : ∀ k : Fin 128, x0 (ix2 p k) = M (ix2 r k))
    (h1 : x1 (ix2 p (0 : Fin 1)) = nd (ix2 r (0 : Fin 1)))
    (h2 : ∀ k : Fin 128, x2 (ix2 k q) = W (ix2 k q))
    (h3 : x3 (ix2 (0 : Fin 1) q) = b (ix2 (0 : Fin 1) q)) :
    k0_pay1 (F := Ideal) x0 x1 x2 x3 (ix2 p q) = layer M nd W b (ix2 r q) := by
  rw [pay_apply]
  unfold layer affineAt
  rw [h1, h3]
  refine congrArg (fun z => max (z + b (ix2 (0 : Fin 1) q)) (Ideal.ofBits .f32 0x00000000#32)) (Finset.sum_congr rfl fun k _ => ?_)
  rw [h0 k, h2 k]

/-- The printed index maps over the grid: features, scale and output move with the point along the rows; weights
    and bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry `(p, k)` of the features' block at point `t` is the array's entry `(2000 t + p, k)`. -/
theorem blk0_apply (c : Dev nD) (t : Fin cfg0.N) (p : Fin 2000) (k : Fin 128) (r : Fin 50000) (hr : r.val = t.val * 2000 + p.val) :
    (iblk0 V c 0 t : FVec Ideal S2000x128 .f32) (ix2 p k) = (V c main_v27 : S50000x128.Idx → EReal) (ix2 r k) := by
  obtain ⟨e00, e01, -⟩ := idx_facts t
  unfold iblk0
  rw [View.read_apply]
  show V c main_v27 _ = V c main_v27 _
  congr 1
  funext a
  apply Fin.ext
  match a with
  | ⟨0, _⟩ => show win0_0.index t (0 : Fin 2) * 2000 + 1 * p.val = r.val; rw [e00, hr]; omega
  | ⟨1, _⟩ => show win0_0.index t (1 : Fin 2) * 128 + 1 * k.val = k.val; rw [e01]; omega

/-- Entry `(p, 0)` of the scale's block at point `t` is the array's entry `(2000 t + p, 0)`. -/
theorem blk1_apply (c : Dev nD) (t : Fin cfg0.N) (p : Fin 2000) (r : Fin 50000) (hr : r.val = t.val * 2000 + p.val) :
    (iblk0 V c 1 t : FVec Ideal S2000x1 .f32) (ix2 p (0 : Fin 1)) = (V c main_v15 : S50000x1.Idx → EReal) (ix2 r (0 : Fin 1)) := by
  obtain ⟨-, -, e10, e11, -⟩ := idx_facts t
  unfold iblk0
  rw [View.read_apply]
  show V c main_v15 _ = V c main_v15 _
  congr 1
  funext a
  apply Fin.ext
  match a with
  | ⟨0, _⟩ => show win0_1.index t (0 : Fin 2) * 2000 + 1 * p.val = r.val; rw [e10, hr]; omega
  | ⟨1, _⟩ => show win0_1.index t (1 : Fin 2) * 1 + 1 * 0 = 0; rw [e11]

/-- The weights' block at any point is the whole array. -/
theorem blk2_apply (c : Dev nD) (t : Fin cfg0.N) (k : Fin 128) (q : Fin 256) :
    (iblk0 V c 2 t : FVec Ideal S128x256 .f32) (ix2 k q) = (V c main_arg1 : S128x256.Idx → EReal) (ix2 k q) := by
  obtain ⟨-, -, -, -, e20, e21, -⟩ := idx_facts t
  unfold iblk0
  rw [View.read_apply]
  show V c main_arg1 _ = V c main_arg1 _
  congr 1
  funext a
  apply Fin.ext
  match a with
  | ⟨0, _⟩ => show win0_2.index t (0 : Fin 2) * 128 + 1 * k.val = k.val; rw [e20]; omega
  | ⟨1, _⟩ => show win0_2.index t (1 : Fin 2) * 256 + 1 * q.val = q.val; rw [e21]; omega

/-- The bias row's block at any point is the whole row. -/
theorem blk3_apply (c : Dev nD) (t : Fin cfg0.N) (q : Fin 256) :
    (iblk0 V c 3 t : FVec Ideal S1x256 .f32) (ix2 (0 : Fin 1) q) = (V c main_v28 : S1x256.Idx → EReal) (ix2 (0 : Fin 1) q) := by
  obtain ⟨-, -, -, -, -, -, e30, e31, -⟩ := idx_facts t
  unfold iblk0
  rw [View.read_apply]
  show V c main_v28 _ = V c main_v28 _
  congr 1
  funext a
  apply Fin.ext
  match a with
  | ⟨0, _⟩ => show win0_3.index t (0 : Fin 2) * 1 + 1 * 0 = 0; rw [e30]
  | ⟨1, _⟩ => show win0_3.index t (1 : Fin 2) * 256 + 1 * q.val = q.val; rw [e31]; omega

/-- What point `t` writes back is block `t` of the layer of the arrays as the launch finds them. -/
theorem flushed_eq (c : Dev nD) (t : Fin cfg0.N) :
    (dat0 V c).flushed 4 t = ((cfg0.win 4).blk t).view.read (Elt Ideal)
      (layer (V c main_v27) (V c main_v15) (V c main_arg1) (V c main_v28)) := by
  show (cfg0.win 4).cut (grid0.coords t) ((dat0 V c).after 4 t) = _
  rw [after0_4]
  unfold out0_4
  rw [View.canon_unit_zero hz]
  simp only [View.ld_unit_zero (S := S2000x128) hz, View.ld_unit_zero (S := S2000x1) hz, View.ld_unit_zero (S := S128x256) hz,
    View.ld_unit_zero (S := S1x256) hz]
  obtain ⟨-, -, -, -, -, -, -, -, e40, e41⟩ := idx_facts t
  have ht : t.val < 25 := t.isLt
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg0.win 4).blk t).view.emb (ix2 p q) = (ix2 (⟨t.val * 2000 + p.val, hr⟩ : Fin 50000) q : S50000x256.Idx) := by
    funext a
    apply Fin.ext
    match a with
    | ⟨0, _⟩ => show win0_4.index t (0 : Fin 2) * 2000 + 1 * p.val = t.val * 2000 + p.val; rw [e40]; omega
    | ⟨1, _⟩ => show win0_4.index t (1 : Fin 2) * 256 + 1 * q.val = q.val; rw [e41]; omega
  show k0_pay1 (F := Ideal) (iblk0 V c 0 t) (iblk0 V c 1 t) (iblk0 V c 2 t) (iblk0 V c 3 t) (ix2 p q)
    = layer (V c main_v27) (V c main_v15) (V c main_arg1) (V c main_v28) (((cfg0.win 4).blk t).view.emb (ix2 p q))
  rw [hemb]
  exact point_eq (V c main_v27) (V c main_v15) (V c main_arg1) (V c main_v28) (iblk0 V c 0 t) (iblk0 V c 1 t) (iblk0 V c 2 t)
    (iblk0 V c 3 t) p q ⟨t.val * 2000 + p.val, hr⟩
    (fun k => blk0_apply V c t p k _ rfl) (blk1_apply V c t p _ rfl) (fun k => blk2_apply V c t k q) (blk3_apply V c t q)

/-- An index of the output is in point `t`'s block iff each coordinate is in the block's range on its axis. -/
theorem mem_blk (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v29).slice (win0_4.rect t)).set ↔ _
  rw [View.set_slice_whole, Rect.mem_set_unit]
  exact Iff.rfl

/-- Every entry of the output is in the block of the point its row names. -/
theorem cover (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, e40, e41⟩ := idx_facts t
  have htv : t.val = (i 0).val / 2000 := rfl
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; rw [e40, htv]; omega
  | ⟨1, _⟩ => show win0_4.index t (1 : Fin 2) * 256 ≤ (i 1).val ∧ (i 1).val < win0_4.index t (1 : Fin 2) * 256 + 256; rw [e41]; omega

/-- The output array after the launch: the layer of the arrays the launch was entered with. -/
theorem final (c : Dev nD) : (dat0 V c).arrAt 4 cfg0.N = layer (V c main_v27) (V c main_v15) (V c main_arg1) (V c main_v28) :=
  (dat0 V c).arrAt_eq_of_cover 4 _ (fun t _ => flushed_eq V c t) cover

end Cert.KernelIdeal.GcnLaunch0

end
-- ==== Proof.Launch1.lean ====
/-
  Launch 1 of the layer kernel: what its output array holds when the launch is over, as one function of the four
  arrays the launch reads, whatever those arrays hold when the launch is entered.

  The grid has 25 points.  Point `t` works on rows `2000 t … 2000 t + 1999`: its blocks of the features and of the
  per-node scale are those rows, its blocks of the weights and of the bias row are the whole arrays, and the block it
  writes back is those rows of the output.  The block computation read at an entry is the layer's expression on
  the block's rows (the lemma on block computations), and a block's row `y` is the array's row `2000 t + y`; so point
  `t` writes back rows `2000 t …` of the layer applied to the whole arrays.  Row `r` lies in the block of point
  `r / 2000`, so the 25 blocks cover the output and it ends holding the layer of the whole arrays.
-/
import proofs.«162387_j47571057770576_1_alg».proof.Proof.Gen.KernelIdeal.Frame
import proofs.«162387_j47571057770576_1_alg».proof.Proof.Dense
import Idealize.ShloMosaic.Lib.Pipeline.Value

set_option maxRecDepth 16384

noncomputable section

open scoped BigOperators

namespace Cert.KernelIdeal.GcnLaunch1

open Cert.KernelIdeal Cert.KernelIdeal.Gen Cert.Gcn Cert.LibPlainDot
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's contraction is a plain matrix product. -/
theorem plain : Plain dot_S2000x256_S256x256_S2000x256_1_0_0_1_n_n := ⟨rfl, rfl, rfl, rfl, rfl, rfl⟩

/-- The layer as a function of the launch's four arrays (the bias a one-row array). -/
def layer (M : S50000x256.Idx → EReal) (nd : S50000x1.Idx → EReal) (W : S256x256.Idx → EReal) (b : S1x256.Idx → EReal) :
    S50000x256.Idx → EReal :=
  fun i => max (affineAt M nd W (b (ix2 (0 : Fin 1) (i 1))) (i 0) (i 1)) (Ideal.ofBits .f32 0x00000000#32)

/-- The block computation read at entry `(p, q)` of the block. -/
theorem pay_apply (x0 : FVec Ideal S2000x256 .f32) (x1 : FVec Ideal S2000x1 .f32) (x2 : FVec Ideal S256x256 .f32)
    (x3 : FVec Ideal S1x256 .f32) (p : Fin 2000) (q : Fin 256) :
    k1_pay1 (F := Ideal) x0 x1 x2 x3 (ix2 p q) = max (affineAt x0 x1 x2 (x3 (ix2 (0 : Fin 1) q)) p q) (Ideal.ofBits .f32 0x00000000#32) := by
  unfold k1_pay1
  exact congrArg (fun z => max z (Ideal.ofBits .f32 0x00000000#32)) (block_affine_apply plain x0 x1 x2 x3 _ _ _ _ _ _ p q)

/-- The block computation at a block entry `y` is the layer of the whole arrays at an array entry `i`, when the blocks
    hold, at the entries the expression reads, what the arrays hold at the corresponding entries. -/
theorem point_eq (M : S50000x256.Idx → EReal) (nd : S50000x1.Idx → EReal) (W : S256x256.Idx → EReal) (b : S1x256.Idx → EReal)
    (x0 : FVec Ideal S2000x256 .f32) (x1 : FVec Ideal S2000x1 .f32) (x2 : FVec Ideal S256x256 .f32) (x3 : FVec Ideal S1x256 .f32)
    (p : Fin 2000) (q : Fin 256) (r : Fin 50000)
    (h0 : ∀ k : Fin 256, x0 (ix2 p k) = M (ix2 r k))
    (h1 : x1 (ix2 p (0 : Fin 1)) = nd (ix2 r (0 : Fin 1)))
    (h2 : ∀ k : Fin 256, x2 (ix2 k q) = W (ix2 k q))
    (h3 : x3 (ix2 (0 : Fin 1) q) = b (ix2 (0 : Fin 1) q)) :
    k1_pay1 (F := Ideal) x0 x1 x2 x3 (ix2 p q) = layer M nd W b (ix2 r q) := by
  rw [pay_apply]
  unfold layer affineAt
  rw [h1, h3]
  refine congrArg (fun z => max (z + b (ix2 (0 : Fin 1) q)) (Ideal.ofBits .f32 0x00000000#32)) (Finset.sum_congr rfl fun k _ => ?_)
  rw [h0 k, h2 k]

/-- The printed index maps over the grid: features, scale and output move with the point along the rows; weights
    and bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the features' block at point `t` is the array's entry `(2000 t + p, k)`. -/
theorem blk0_apply (c : Dev nD) (t : Fin cfg1.N) (p : Fin 2000) (k : Fin 256) (r : Fin 50000) (hr : r.val = t.val * 2000 + p.val) :
    (iblk1 V c 0 t : FVec Ideal S2000x256 .f32) (ix2 p k) = (V c main_v41 : S50000x256.Idx → EReal) (ix2 r k) := by
  obtain ⟨e00, e01, -⟩ := idx_facts t
  unfold iblk1
  rw [View.read_apply]
  show V c main_v41 _ = V c main_v41 _
  congr 1
  funext a
  apply Fin.ext
  match a with
  | ⟨0, _⟩ => show win1_0.index t (0 : Fin 2) * 2000 + 1 * p.val = r.val; rw [e00, hr]; omega
  | ⟨1, _⟩ => show win1_0.index t (1 : Fin 2) * 256 + 1 * k.val = k.val; rw [e01]; omega

/-- Entry `(p, 0)` of the scale's block at point `t` is the array's entry `(2000 t + p, 0)`. -/
theorem blk1_apply (c : Dev nD) (t : Fin cfg1.N) (p : Fin 2000) (r : Fin 50000) (hr : r.val = t.val * 2000 + p.val) :
    (iblk1 V c 1 t : FVec Ideal S2000x1 .f32) (ix2 p (0 : Fin 1)) = (V c main_v15 : S50000x1.Idx → EReal) (ix2 r (0 : Fin 1)) := by
  obtain ⟨-, -, e10, e11, -⟩ := idx_facts t
  unfold iblk1
  rw [View.read_apply]
  show V c main_v15 _ = V c main_v15 _
  congr 1
  funext a
  apply Fin.ext
  match a with
  | ⟨0, _⟩ => show win1_1.index t (0 : Fin 2) * 2000 + 1 * p.val = r.val; rw [e10, hr]; omega
  | ⟨1, _⟩ => show win1_1.index t (1 : Fin 2) * 1 + 1 * 0 = 0; rw [e11]

/-- The weights' block at any point is the whole array. -/
theorem blk2_apply (c : Dev nD) (t : Fin cfg1.N) (k : Fin 256) (q : Fin 256) :
    (iblk1 V c 2 t : FVec Ideal S256x256 .f32) (ix2 k q) = (V c main_arg3 : S256x256.Idx → EReal) (ix2 k q) := by
  obtain ⟨-, -, -, -, e20, e21, -⟩ := idx_facts t
  unfold iblk1
  rw [View.read_apply]
  show V c main_arg3 _ = V c main_arg3 _
  congr 1
  funext a
  apply Fin.ext
  match a with
  | ⟨0, _⟩ => show win1_2.index t (0 : Fin 2) * 256 + 1 * k.val = k.val; rw [e20]; omega
  | ⟨1, _⟩ => show win1_2.index t (1 : Fin 2) * 256 + 1 * q.val = q.val; rw [e21]; omega

/-- The bias row's block at any point is the whole row. -/
theorem blk3_apply (c : Dev nD) (t : Fin cfg1.N) (q : Fin 256) :
    (iblk1 V c 3 t : FVec Ideal S1x256 .f32) (ix2 (0 : Fin 1) q) = (V c main_v42 : S1x256.Idx → EReal) (ix2 (0 : Fin 1) q) := by
  obtain ⟨-, -, -, -, -, -, e30, e31, -⟩ := idx_facts t
  unfold iblk1
  rw [View.read_apply]
  show V c main_v42 _ = V c main_v42 _
  congr 1
  funext a
  apply Fin.ext
  match a with
  | ⟨0, _⟩ => show win1_3.index t (0 : Fin 2) * 1 + 1 * 0 = 0; rw [e30]
  | ⟨1, _⟩ => show win1_3.index t (1 : Fin 2) * 256 + 1 * q.val = q.val; rw [e31]; omega

/-- What point `t` writes back is block `t` of the layer of the arrays as the launch finds them. -/
theorem flushed_eq (c : Dev nD) (t : Fin cfg1.N) :
    (dat1 V c).flushed 4 t = ((cfg1.win 4).blk t).view.read (Elt Ideal)
      (layer (V c main_v41) (V c main_v15) (V c main_arg3) (V c main_v42)) := by
  show (cfg1.win 4).cut (grid1.coords t) ((dat1 V c).after 4 t) = _
  rw [after1_4]
  unfold out1_4
  rw [View.canon_unit_zero hz]
  simp only [View.ld_unit_zero (S := S2000x256) hz, View.ld_unit_zero (S := S2000x1) hz, View.ld_unit_zero (S := S256x256) hz,
    View.ld_unit_zero (S := S1x256) hz]
  obtain ⟨-, -, -, -, -, -, -, -, e40, e41⟩ := idx_facts t
  have ht : t.val < 25 := t.isLt
  funext j
  obtain ⟨p, q, rfl⟩ : ∃ (p : Fin 2000) (q : Fin 256), j = ix2 p q := ⟨j 0, j 1, eq_ix2 j⟩
  have hr : t.val * 2000 + p.val < 50000 := by have := p.isLt; omega
  have hemb : ((cfg1.win 4).blk t).view.emb (ix2 p q) = (ix2 (⟨t.val * 2000 + p.val, hr⟩ : Fin 50000) q : S50000x256.Idx) := by
    funext a
    apply Fin.ext
    match a with
    | ⟨0, _⟩ => show win1_4.index t (0 : Fin 2) * 2000 + 1 * p.val = t.val * 2000 + p.val; rw [e40]; omega
    | ⟨1, _⟩ => show win1_4.index t (1 : Fin 2) * 256 + 1 * q.val = q.val; rw [e41]; omega
  show k1_pay1 (F := Ideal) (iblk1 V c 0 t) (iblk1 V c 1 t) (iblk1 V c 2 t) (iblk1 V c 3 t) (ix2 p q)
    = layer (V c main_v41) (V c main_v15) (V c main_arg3) (V c main_v42) (((cfg1.win 4).blk t).view.emb (ix2 p q))
  rw [hemb]
  exact point_eq (V c main_v41) (V c main_v15) (V c main_arg3) (V c main_v42) (iblk1 V c 0 t) (iblk1 V c 1 t) (iblk1 V c 2 t)
    (iblk1 V c 3 t) p q ⟨t.val * 2000 + p.val, hr⟩
    (fun k => blk0_apply V c t p k _ rfl) (blk1_apply V c t p _ rfl) (fun k => blk2_apply V c t k q) (blk3_apply V c t q)

/-- An index of the output is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v43).slice (win1_4.rect t)).set ↔ _
  rw [View.set_slice_whole, Rect.mem_set_unit]
  exact Iff.rfl

/-- Every entry of the output is in the block of the point its row names. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, -, -, e40, e41⟩ := idx_facts t
  have htv : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [e40, htv]; omega
  | ⟨1, _⟩ => show win1_4.index t (1 : Fin 2) * 256 ≤ (i 1).val ∧ (i 1).val < win1_4.index t (1 : Fin 2) * 256 + 256; rw [e41]; omega

/-- The output array after the launch: the layer of the arrays the launch was entered with. -/
theorem final (c : Dev nD) : (dat1 V c).arrAt 4 cfg1.N = layer (V c main_v41) (V c main_v15) (V c main_arg3) (V c main_v42) :=
  (dat1 V c).arrAt_eq_of_cover 4 _ (fun t _ => flushed_eq V c t) cover

end Cert.KernelIdeal.GcnLaunch1

end
-- ==== Proof.Launch2.lean ====
/-
  Launch 2 of the layer kernel: what its output array holds when the launch is over, as one function of the four
  arrays the launch reads, whatever those arrays hold when the launch is entered.

  The grid has 25 points.  Point `t` works on rows `2000 t … 2000 t + 1999`: its blocks of the features and of the
  per-node scale are those rows, its blocks of the weights and of the bias row are the whole arrays, and the block it
  writes back is those rows of the output.  The block computation read at an entry is the layer's expression on
  the block's rows (the lemma on block computations), and a block's row `y` is the array's row `2000 t + y`; so point
  `t` writes back rows `2000 t …` of the layer applied to the whole arrays.  Row `r` lies in the block of point
  `r / 2000`, so the 25 blocks cover the output and it ends holding the layer of the whole arrays.
-/
import proofs.«162387_j47571057770576_1_alg».proof.Proof.Gen.KernelIdeal.Frame
import proofs.«162387_j47571057770576_1_alg».proof.Proof.Dense
import Idealize.ShloMosaic.Lib.Pipeline.Value

set_option maxRecDepth 16384

noncomputable section

open scoped BigOperators

namespace Cert.KernelIdeal.GcnLaunch2

open Cert.KernelIdeal Cert.KernelIdeal.Gen Cert.Gcn Cert.LibPlainDot
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The kernel's contraction is a plain matrix product. -/
theorem plain : Plain dot_S2000x256_S256x64_S2000x64_1_0_0_1_n_n := ⟨rfl, rfl, rfl, rfl, rfl, rfl⟩

/-- The layer as a function of the launch's four arrays (the bias a one-row array). -/
def layer (M : S50000x256.Idx → EReal) (nd : S50000x1.Idx → EReal) (W : S256x64.Idx → EReal) (b : S1x64.Idx → EReal) :
    S50000x64.Idx → EReal :=
  fun i => affineAt M nd W (b (ix2 (0 : Fin 1) (i 1))) (i 0) (i 1)

/-- The block computation read at entry `(p, q)` of the block. -/
theorem pay_apply (x0 : FVec Ideal S2000x256 .f32) (x1 : FVec Ideal S2000x1 .f32) (x2 : FVec Ideal S256x64 .f32)
    (x3 : FVec Ideal S1x64 .f32) (p : Fin 2000) (q : Fin 64) :
    k2_pay1 (F := Ideal) x0 x1 x2 x3 (ix2 p q) = affineAt x0 x1 x2 (x3 (ix2 (0 : Fin 1) q)) p q := by
  unfold k2_pay1
  exact block_affine_apply plain x0 x1 x2 x3 _ _ _ _ _ _ p q

/-- The block computation at a block entry `y` is the layer of the whole arrays at an array entry `i`, when the blocks
    hold, at the entries the expression reads, what the arrays hold at the corresponding entries. -/
theorem point_eq (M : S50000x256.Idx → EReal) (nd : S50000x1.Idx → EReal) (W : S256x64.Idx → EReal) (b : S1x64.Idx → EReal)
    (x0 : FVec Ideal S2000x256 .f32) (x1 : FVec Ideal S2000x1 .f32) (x2 : FVec Ideal S256x64 .f32) (x3 : FVec Ideal S1x64 .f32)
    (p : Fin 2000) (q : Fin 64) (r : Fin 50000)
    (h0 : ∀ k : Fin 256, x0 (ix2 p k) = M (ix2 r k))
    (h1 : x1 (ix2 p (0 : Fin 1)) = nd (ix2 r (0 : Fin 1)))
    (h2 : ∀ k : Fin 256, x2 (ix2 k q) = W (ix2 k q))
    (h3 : x3 (ix2 (0 : Fin 1) q) = b (ix2 (0 : Fin 1) q)) :
    k2_pay1 (F := Ideal) x0 x1 x2 x3 (ix2 p q) = layer M nd W b (ix2 r q) := by
  rw [pay_apply]
  unfold layer affineAt
  rw [h1, h3]
  refine congrArg (fun z => z + b (ix2 (0 : Fin 1) q)) (Finset.sum_congr rfl fun k _ => ?_)
  rw [h0 k, h2 k]

/-- The printed index maps over the grid: features, scale and output move with the point along the rows; weights
    and bias stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry `(p, k)` of the features' block at point `t` is the array's entry `(2000 t + p, k)`. -/
theorem blk0_apply (c : Dev nD) (t : Fin cfg2.N) (p : Fin 2000) (k : Fin 256) (r : Fin 50000) (hr : r.val = t.val * 2000 + p.val) :
    (iblk2 V c 0 t : FVec Ideal S2000x256 .f32) (ix2 p k) = (V c main_v55 : S50000x256.Idx → EReal) (ix2 r k) := by
  obtain ⟨e00, e01, -⟩ := idx_facts t
  unfold iblk2
  rw [View.read_apply]
  show V c main_v55 _ = V c main_v55 _
  congr 1
  funext a
  apply Fin.ext
  match a with
  | ⟨0, _⟩ => show win2_0.index t (0 : Fin 2) * 2000 + 1 * p.val = r.val; rw [e00, hr]; omega
  | ⟨1, _⟩ => show win2_0.index t (1 : Fin 2) * 256 + 1 * k.val = k.val; rw [e01]; omega

/-- Entry `(p, 0)` of the scale's block at point `t` is the array's entry `(2000 t + p, 0)`. -/
theorem blk1_apply (c : Dev nD) (t : Fin cfg2.N) (p : Fin 2000) (r : Fin 50000) (hr : r.val = t.val * 2000 + p.val) :
    (iblk2 V c 1 t : FVec Ideal S2000x1 .f32) (ix2 p (0 : Fin 1)) = (V c main_v15 : S50000x1.Idx → EReal) (ix2 r (0 : Fin 1)) := by
  obtain ⟨-, -, e10, e11, -⟩ := idx_facts t
  unfold iblk2
  rw [View.read_apply]
  show V c main_v15 _ = V c main_v15 _
  congr 1
  funext a
  apply Fin.ext
  match a with
  | ⟨0, _⟩ => show win2_1.index t (0 : Fin 2) * 2000 + 1 * p.val = r.val; rw [e10, hr]; omega
  | ⟨1, _⟩ => show win2_1.index t (1 : Fin 2) * 1 + 1 * 0 = 0; rw [e11]

/-- The weights' block at any point is the whole array. -/
theorem blk2_apply (c : Dev nD) (t : Fin cfg2.N) (k : Fin 256) (q : Fin 64) :
    (iblk2 V c 2 t : FVec Ideal S256x64 .f32) (ix2 k q) = (V c main_arg5 : S256x64.Idx → EReal) (ix2 k q) := by
  obtain ⟨-, -, -, -, e20, e21, -⟩ := idx_facts t
  unfold iblk2
  rw [View.read_apply]
  show V c main_arg5 _ = V c main_arg5 _
  congr 1
  funext a
  apply Fin.ext
  match a with
  | ⟨0, _⟩ => show win2_2.index t (0 : Fin 2) * 256 + 1 * k.val = k.val; rw [e20]; omega
  | ⟨1, _⟩ => show win2_2.index t (1 : Fin 2) * 64 + 1 * q.val = q.val; rw [e21]; omega

/-- The bias row's block at any point is the whole row. -/
theorem blk3_apply (c : Dev nD) (t : Fin cfg2.N) (q : Fin 64) :
    (iblk2 V c 3 t : FVec Ideal S1x64 .f32) (ix2 (0 : Fin 1) q) = (V c main_v56 : S1x64.Idx → EReal) (ix2 (0 : Fin 1) q) := by
  obtain ⟨-, -, -, -, -, -, e30, e31, -⟩ := idx_facts t
  unfold iblk2
  rw [View.read_apply]
  show V c main_v56 _ = V c main_v56 _
  congr 1
  funext a
  apply Fin.ext
  match a with
  | ⟨0, _⟩ => show win2_3.index t (0 : Fin 2) * 1 + 1 * 0 = 0; rw [e30]
  | ⟨1, _⟩ => show win2_3.index t (1 : Fin 2) * 64 + 1 * q.val = q.val; rw [e31]; omega

/-- What point `t` writes back is block `t` of the layer of the arrays as the launch finds them. -/
theorem flushed_eq (c : Dev nD) (t : Fin cfg2.N) :
    (dat2 V c).flushed 4 t = ((cfg2.win 4).blk t).view.read (Elt Ideal)
      (layer (V c main_v55) (V c main_v15) (V c main_arg5) (V c main_v56)) := by
  show (cfg2.win 4).cut (grid2.coords t) ((dat2 V c).after 4 t) = _
  rw [after2_4]
  unfold out2_4
  rw [View.canon_unit_zero hz]
  simp only [View.ld_unit_zero (S := S2000x256) hz, View.ld_unit_zero (S := S2000x1) hz, View.ld_unit_zero (S := S256x64) hz,
    View.ld_unit_zero (S := S1x64) hz]
  obtain ⟨-, -, -, -, -, -, -, -, e40, e41⟩ := idx_facts t
  have ht : t.val < 25 := t.isLt
  funext j
  obtain ⟨p, q, rfl⟩ : ∃ (p : Fin 2000) (q : Fin 64), j = ix2 p q := ⟨j 0, j 1, eq_ix2 j⟩
  have hr : t.val * 2000 + p.val < 50000 := by have := p.isLt; omega
  have hemb : ((cfg2.win 4).blk t).view.emb (ix2 p q) = (ix2 (⟨t.val * 2000 + p.val, hr⟩ : Fin 50000) q : S50000x64.Idx) := by
    funext a
    apply Fin.ext
    match a with
    | ⟨0, _⟩ => show win2_4.index t (0 : Fin 2) * 2000 + 1 * p.val = t.val * 2000 + p.val; rw [e40]; omega
    | ⟨1, _⟩ => show win2_4.index t (1 : Fin 2) * 64 + 1 * q.val = q.val; rw [e41]; omega
  show k2_pay1 (F := Ideal) (iblk2 V c 0 t) (iblk2 V c 1 t) (iblk2 V c 2 t) (iblk2 V c 3 t) (ix2 p q)
    = layer (V c main_v55) (V c main_v15) (V c main_arg5) (V c main_v56) (((cfg2.win 4).blk t).view.emb (ix2 p q))
  rw [hemb]
  exact point_eq (V c main_v55) (V c main_v15) (V c main_arg5) (V c main_v56) (iblk2 V c 0 t) (iblk2 V c 1 t) (iblk2 V c 2 t)
    (iblk2 V c 3 t) p q ⟨t.val * 2000 + p.val, hr⟩
    (fun k => blk0_apply V c t p k _ rfl) (blk1_apply V c t p _ rfl) (fun k => blk2_apply V c t k q) (blk3_apply V c t q)

/-- An index of the output is in point `t`'s block iff each coordinate is in the block's range on its axis. -/
theorem mem_blk (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v57).slice (win2_4.rect t)).set ↔ _
  rw [View.set_slice_whole, Rect.mem_set_unit]
  exact Iff.rfl

/-- Every entry of the output is in the block of the point its row names. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨-, -, -, -, -, -, -, -, e40, e41⟩ := idx_facts t
  have htv : t.val = (i 0).val / 2000 := rfl
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; rw [e40, htv]; omega
  | ⟨1, _⟩ => show win2_4.index t (1 : Fin 2) * 64 ≤ (i 1).val ∧ (i 1).val < win2_4.index t (1 : Fin 2) * 64 + 64; rw [e41]; omega

/-- The output array after the launch: the layer of the arrays the launch was entered with. -/
theorem final (c : Dev nD) : (dat2 V c).arrAt 4 cfg2.N = layer (V c main_v55) (V c main_v15) (V c main_arg5) (V c main_v56) :=
  (dat2 V c).arrAt_eq_of_cover 4 _ (fun t _ => flushed_eq V c t) cover

end Cert.KernelIdeal.GcnLaunch2

end
-- ==== Proof.Stages.lean ====
/-
  The parts of the network the two programs share, and the network as one function of its arguments.

  Both programs append a self-loop per node to the edge list, count each node's out- and in-degree by adding a one
  per edge end, raise the counts to the power -1/2 (kept as one-column arrays), and before every layer scale the
  features by the source-side column, gather the rows the edges' sources name (an index below zero wrapped by the
  node count first) and add them into the rows the edges' targets name.  These stages are the same operations in
  the two programs; they are named here once and never opened.  Between them sits the layer (Dense), which the two
  programs compute differently.  `net` is the whole: three aggregations and three layers, the first two rectified.
-/
import proofs.«162387_j47571057770576_1_alg».proof.Proof.Gen.KernelIdeal
import proofs.«162387_j47571057770576_1_alg».proof.Proof.Dense

noncomputable section

namespace Cert.KernelIdeal.Stages

open Cert.KernelIdeal Cert.KernelIdeal.Facts₀ Cert.Gcn Idealize.ShloMosaic

variable {F : FTy → Type} [FloatOps F]

/-- An edge-end list with the self-loops `0 … 49999` appended. -/
def withLoops (e : (⟨S800000, .i32⟩ : BufTy).Contents (Elt F)) : (⟨S850000, .i32⟩ : BufTy).Contents (Elt F) :=
  concatenate S850000 0 [⟨S800000, e⟩, ⟨S50000, iotaInDim S50000 32 0⟩] concatenates_S800000_S50000_S850000_d0

/-- The degree of every node over an edge-end list, to the power -1/2, as a one-column array. -/
def degNorm (e : (⟨S850000, .i32⟩ : BufTy).Contents (Elt F)) : (⟨S50000x1, .f32⟩ : BufTy).Contents (Elt F) :=
  broadcastInDim S50000x1 ![0] bcast_S50000_S50000x1_0
    (Host.powf
      (Host.scatterAdd scatter_S50000_S850000x1_S850000_n_0_0_1
        (broadcastInDim S50000 ![] bcast_S_S50000 (constant S_ .f32 0x00000000#32))
        (broadcastInDim S850000x1 ![0] bcast_S850000_S850000x1_0 e)
        (broadcastInDim S850000 ![] bcast_S_S850000 (constant S_ .f32 0x3F800000#32)))
      (broadcastInDim S50000 ![] bcast_S_S50000 (constant S_ .f32 0xBF000000#32)))

/-- The row numbers a gather uses: a source index below zero is wrapped by the node count. -/
def wrapped (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- Aggregation of 128-feature rows: scale by the source-side column, gather along the sources, add into the targets. -/
def agg128 (x : (⟨S50000x128, .f32⟩ : BufTy).Contents (Elt F)) (ns : (⟨S50000x1, .f32⟩ : BufTy).Contents (Elt F))
    (s d : (⟨S850000, .i32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (Host.gather gather_S50000x128_S850000x1_S850000x128_1_0_n_n_0_1_1128
      (mulf x (broadcastInDim S50000x128 ![0, 1] bcast_S50000x1_S50000x128_0_1 ns)) (wrapped s))

/-- Aggregation of 256-feature rows. -/
def agg256 (x : (⟨S50000x256, .f32⟩ : BufTy).Contents (Elt F)) (ns : (⟨S50000x1, .f32⟩ : BufTy).Contents (Elt F))
    (s d : (⟨S850000, .i32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (broadcastInDim S850000x1 ![0] bcast_S850000_S850000x1_0 d)
    (Host.gather gather_S50000x256_S850000x1_S850000x256_1_0_n_n_0_1_1256
      (mulf x (broadcastInDim S50000x256 ![0, 1] bcast_S50000x1_S50000x256_0_1 ns)) (wrapped s))

/-- The first hidden layer, from the features and the edge-end lists (self-loops already appended). -/
def hidden1 (x : (⟨S50000x128, .f32⟩ : BufTy).Contents (Elt Ideal)) (W1 : (⟨S128x256, .f32⟩ : BufTy).Contents (Elt Ideal)) (b1 : (⟨S256, .f32⟩ : BufTy).Contents (Elt Ideal))
    (s d : (⟨S850000, .i32⟩ : BufTy).Contents (Elt Ideal)) : (⟨S50000x256, .f32⟩ : BufTy).Contents (Elt Ideal) :=
  affineRelu (agg128 x (degNorm s) s d) (degNorm d) W1 b1

/-- The second hidden layer, from the first. -/
def hidden2 (h1 : (⟨S50000x256, .f32⟩ : BufTy).Contents (Elt Ideal)) (W2 : (⟨S256x256, .f32⟩ : BufTy).Contents (Elt Ideal)) (b2 : (⟨S256, .f32⟩ : BufTy).Contents (Elt Ideal))
    (s d : (⟨S850000, .i32⟩ : BufTy).Contents (Elt Ideal)) : (⟨S50000x256, .f32⟩ : BufTy).Contents (Elt Ideal) :=
  affineRelu (agg256 h1 (degNorm s) s d) (degNorm d) W2 b2

/-- The output layer, from the second hidden layer: no rectifier. -/
def outLayer (h2 : (⟨S50000x256, .f32⟩ : BufTy).Contents (Elt Ideal)) (W3 : (⟨S256x64, .f32⟩ : BufTy).Contents (Elt Ideal)) (b3 : (⟨S64, .f32⟩ : BufTy).Contents (Elt Ideal))
    (s d : (⟨S850000, .i32⟩ : BufTy).Contents (Elt Ideal)) : (⟨S50000x64, .f32⟩ : BufTy).Contents (Elt Ideal) :=
  affine (agg256 h2 (degNorm s) s d) (degNorm d) W3 b3

/-- The network on the extended reals, from the node features, the three layers' weights and biases, and the two
    edge-end lists. -/
def net (x : (⟨S50000x128, .f32⟩ : BufTy).Contents (Elt Ideal))
    (W1 : (⟨S128x256, .f32⟩ : BufTy).Contents (Elt Ideal)) (b1 : (⟨S256, .f32⟩ : BufTy).Contents (Elt Ideal))
    (W2 : (⟨S256x256, .f32⟩ : BufTy).Contents (Elt Ideal)) (b2 : (⟨S256, .f32⟩ : BufTy).Contents (Elt Ideal))
    (W3 : (⟨S256x64, .f32⟩ : BufTy).Contents (Elt Ideal)) (b3 : (⟨S64, .f32⟩ : BufTy).Contents (Elt Ideal))
    (src dst : (⟨S800000, .i32⟩ : BufTy).Contents (Elt Ideal)) : (⟨S50000x64, .f32⟩ : BufTy).Contents (Elt Ideal) :=
  outLayer (hidden2 (hidden1 x W1 b1 (withLoops src) (withLoops dst)) W2 b2 (withLoops src) (withLoops dst)) W3 b3
    (withLoops src) (withLoops dst)

end Cert.KernelIdeal.Stages

end
-- ==== Proof.KernelValue.lean ====
/-
  What the tiled program leaves in its result buffer, as the network of its arguments.

  The contents of the buffers are followed from boundary to boundary.  After the first host stretch the edge lists
  with their self-loops, the two degree columns, the first aggregation and the first bias row are in their buffers.
  A launch changes only its output array, which ends at the layer of the arrays the launch was entered with; a host
  stretch changes only the buffers its operations write.  So the lists, the columns and the later layers' weights
  and biases are carried unchanged to where they are read, and each aggregation and each layer is applied to what
  the step before left.  The last launch's output is the result.  A bias enters a launch as a one-row array, the
  cast of the bias vector: its entry `(0, q)` is the vector's entry `q`.
-/
import proofs.«162387_j47571057770576_1_alg».proof.Proof.Gen.KernelIdeal.Frame
import proofs.«162387_j47571057770576_1_alg».proof.Proof.Launch0
import proofs.«162387_j47571057770576_1_alg».proof.Proof.Launch1
import proofs.«162387_j47571057770576_1_alg».proof.Proof.Launch2
import proofs.«162387_j47571057770576_1_alg».proof.Proof.Stages
import Idealize.ShloMosaic.Lib.StableHlo.Run

set_option maxRecDepth 16384

noncomputable section

namespace Cert.KernelIdeal.GcnValue

open Cert.KernelIdeal Cert.KernelIdeal.Gen Cert.KernelIdeal.Stages Cert.Gcn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## After the first host stretch -/

theorem e1_v1 : V1 m ρ c main_v1 = withLoops (m ((c : Thread nD τ).loc main_arg7)) := by
  show StableHlo.after hostOps0 (W0 m ρ c) (Proc.devRef .tc main_v1) = _
  after_results_simp <;> rfl

theorem e1_v2 : V1 m ρ c main_v2 = withLoops (m ((c : Thread nD τ).loc main_arg8)) := by
  show StableHlo.after hostOps0 (W0 m ρ c) (Proc.devRef .tc main_v2) = _
  after_results_simp <;> rfl

theorem e1_v12 : V1 m ρ c main_v12 = degNorm (withLoops (m ((c : Thread nD τ).loc main_arg7))) := by
  show StableHlo.after hostOps0 (W0 m ρ c) (Proc.devRef .tc main_v12) = _
  after_results_simp <;> rfl

theorem e1_v15 : V1 m ρ c main_v15 = degNorm (withLoops (m ((c : Thread nD τ).loc main_arg8))) := by
  show StableHlo.after hostOps0 (W0 m ρ c) (Proc.devRef .tc main_v15) = _
  after_results_simp <;> rfl

theorem e1_v27 : V1 m ρ c main_v27 = agg128 (m ((c : Thread nD τ).loc main_arg0)) (degNorm (withLoops (m ((c : Thread nD τ).loc main_arg7)))) (withLoops (m ((c : Thread nD τ).loc main_arg7))) (withLoops (m ((c : Thread nD τ).loc main_arg8))) := by
  show StableHlo.after hostOps0 (W0 m ρ c) (Proc.devRef .tc main_v27) = _
  after_results_simp <;> rfl

theorem e1_v28 : V1 m ρ c main_v28 = shapeCast S1x256 (m ((c : Thread nD τ).loc main_arg2)) Facts₀.shapeCasts_S256_S1x256 := by
  show StableHlo.after hostOps0 (W0 m ρ c) (Proc.devRef .tc main_v28) = _
  after_results_simp <;> rfl

theorem e1_arg1 : V1 m ρ c main_arg1 = (m ((c : Thread nD τ).loc main_arg1)) := by
  show StableHlo.after hostOps0 (W0 m ρ c) (Proc.devRef .tc main_arg1) = _
  after_results_simp <;> rfl

theorem e1_arg3 : V1 m ρ c main_arg3 = (m ((c : Thread nD τ).loc main_arg3)) := by
  show StableHlo.after hostOps0 (W0 m ρ c) (Proc.devRef .tc main_arg3) = _
  after_results_simp <;> rfl

theorem e1_arg4 : V1 m ρ c main_arg4 = (m ((c : Thread nD τ).loc main_arg4)) := by
  show StableHlo.after hostOps0 (W0 m ρ c) (Proc.devRef .tc main_arg4) = _
  after_results_simp <;> rfl

theorem e1_arg5 : V1 m ρ c main_arg5 = (m ((c : Thread nD τ).loc main_arg5)) := by
  show StableHlo.after hostOps0 (W0 m ρ c) (Proc.devRef .tc main_arg5) = _
  after_results_simp <;> rfl

theorem e1_arg6 : V1 m ρ c main_arg6 = (m ((c : Thread nD τ).loc main_arg6)) := by
  show StableHlo.after hostOps0 (W0 m ρ c) (Proc.devRef .tc main_arg6) = _
  after_results_simp <;> rfl

/-! ## Across the first launch -/

theorem e2_v29 : V2 m ρ c main_v29 = GcnLaunch0.layer (V1 m ρ c main_v27) (V1 m ρ c main_v15) (V1 m ρ c main_arg1) (V1 m ρ c main_v28) :=
  (W2_arr m ρ c 4).trans (GcnLaunch0.final (V1 m ρ) c)
theorem e2_v1 : V2 m ρ c main_v1 = V1 m ρ c main_v1 := W2_of_ne m ρ c main_v1 (by decide)
theorem e2_v2 : V2 m ρ c main_v2 = V1 m ρ c main_v2 := W2_of_ne m ρ c main_v2 (by decide)
theorem e2_v12 : V2 m ρ c main_v12 = V1 m ρ c main_v12 := W2_of_ne m ρ c main_v12 (by decide)
theorem e2_v15 : V2 m ρ c main_v15 = V1 m ρ c main_v15 :=
  (W2_arr m ρ c 1).trans (((dat0 (V1 m ρ) c).arrAt_in 1 rfl _).trans (A_eq0 (V1 m ρ) c 1))
theorem e2_arg3 : V2 m ρ c main_arg3 = V1 m ρ c main_arg3 := W2_of_ne m ρ c main_arg3 (by decide)
theorem e2_arg4 : V2 m ρ c main_arg4 = V1 m ρ c main_arg4 := W2_of_ne m ρ c main_arg4 (by decide)
theorem e2_arg5 : V2 m ρ c main_arg5 = V1 m ρ c main_arg5 := W2_of_ne m ρ c main_arg5 (by decide)
theorem e2_arg6 : V2 m ρ c main_arg6 = V1 m ρ c main_arg6 := W2_of_ne m ρ c main_arg6 (by decide)

/-! ## After the second host stretch -/

theorem e3_v41 : V3 m ρ c main_v41 = agg256 (V2 m ρ c main_v29) (V2 m ρ c main_v12) (V2 m ρ c main_v1) (V2 m ρ c main_v2) := by
  show StableHlo.after hostOps1 (W2 m ρ c) (Proc.devRef .tc main_v41) = _
  after_results_simp <;> rfl

theorem e3_v42 : V3 m ρ c main_v42 = shapeCast S1x256 (V2 m ρ c main_arg4) Facts₀.shapeCasts_S256_S1x256 := by
  show StableHlo.after hostOps1 (W2 m ρ c) (Proc.devRef .tc main_v42) = _
  after_results_simp <;> rfl

theorem e3_v1 : V3 m ρ c main_v1 = V2 m ρ c main_v1 := by
  show StableHlo.after hostOps1 (W2 m ρ c) (Proc.devRef .tc main_v1) = _
  after_results_simp <;> rfl

theorem e3_v2 : V3 m ρ c main_v2 = V2 m ρ c main_v2 := by
  show StableHlo.after hostOps1 (W2 m ρ c) (Proc.devRef .tc main_v2) = _
  after_results_simp <;> rfl

theorem e3_v12 : V3 m ρ c main_v12 = V2 m ρ c main_v12 := by
  show StableHlo.after hostOps1 (W2 m ρ c) (Proc.devRef .tc main_v12) = _
  after_results_simp <;> rfl

theorem e3_v15 : V3 m ρ c main_v15 = V2 m ρ c main_v15 := by
  show StableHlo.after hostOps1 (W2 m ρ c) (Proc.devRef .tc main_v15) = _
  after_results_simp <;> rfl

theorem e3_arg3 : V3 m ρ c main_arg3 = V2 m ρ c main_arg3 := by
  show StableHlo.after hostOps1 (W2 m ρ c) (Proc.devRef .tc main_arg3) = _
  after_results_simp <;> rfl

theorem e3_arg5 : V3 m ρ c main_arg5 = V2 m ρ c main_arg5 := by
  show StableHlo.after hostOps1 (W2 m ρ c) (Proc.devRef .tc main_arg5) = _
  after_results_simp <;> rfl

theorem e3_arg6 : V3 m ρ c main_arg6 = V2 m ρ c main_arg6 := by
  show StableHlo.after hostOps1 (W2 m ρ c) (Proc.devRef .tc main_arg6) = _
  after_results_simp <;> rfl

/-! ## Across the second launch -/

theorem e4_v43 : V4 m ρ c main_v43 = GcnLaunch1.layer (V3 m ρ c main_v41) (V3 m ρ c main_v15) (V3 m ρ c main_arg3) (V3 m ρ c main_v42) :=
  (W4_arr m ρ c 4).trans (GcnLaunch1.final (V3 m ρ) c)
theorem e4_v1 : V4 m ρ c main_v1 = V3 m ρ c main_v1 := W4_of_ne m ρ c main_v1 (by decide)
theorem e4_v2 : V4 m ρ c main_v2 = V3 m ρ c main_v2 := W4_of_ne m ρ c main_v2 (by decide)
theorem e4_v12 : V4 m ρ c main_v12 = V3 m ρ c main_v12 := W4_of_ne m ρ c main_v12 (by decide)
theorem e4_v15 : V4 m ρ c main_v15 = V3 m ρ c main_v15 :=
  (W4_arr m ρ c 1).trans (((dat1 (V3 m ρ) c).arrAt_in 1 rfl _).trans (A_eq1 (V3 m ρ) c 1))
theorem e4_arg5 : V4 m ρ c main_arg5 = V3 m ρ c main_arg5 := W4_of_ne m ρ c main_arg5 (by decide)
theorem e4_arg6 : V4 m ρ c main_arg6 = V3 m ρ c main_arg6 := W4_of_ne m ρ c main_arg6 (by decide)

/-! ## After the third host stretch -/

theorem e5_v55 : V5 m ρ c main_v55 = agg256 (V4 m ρ c main_v43) (V4 m ρ c main_v12) (V4 m ρ c main_v1) (V4 m ρ c main_v2) := by
  show StableHlo.after hostOps2 (W4 m ρ c) (Proc.devRef .tc main_v55) = _
  after_results_simp <;> rfl

theorem e5_v56 : V5 m ρ c main_v56 = shapeCast S1x64 (V4 m ρ c main_arg6) Facts₀.shapeCasts_S64_S1x64 := by
  show StableHlo.after hostOps2 (W4 m ρ c) (Proc.devRef .tc main_v56) = _
  after_results_simp <;> rfl

theorem e5_v15 : V5 m ρ c main_v15 = V4 m ρ c main_v15 := by
  show StableHlo.after hostOps2 (W4 m ρ c) (Proc.devRef .tc main_v15) = _
  after_results_simp <;> rfl

theorem e5_arg5 : V5 m ρ c main_arg5 = V4 m ρ c main_arg5 := by
  show StableHlo.after hostOps2 (W4 m ρ c) (Proc.devRef .tc main_arg5) = _
  after_results_simp <;> rfl

/-! ## Across the third launch -/

theorem e6_v57 : W6 m ρ c (Proc.devRef .tc main_v57) = GcnLaunch2.layer (V5 m ρ c main_v55) (V5 m ρ c main_v15) (V5 m ρ c main_arg5) (V5 m ρ c main_v56) :=
  (W6_arr m ρ c 4).trans (GcnLaunch2.final (V5 m ρ) c)

/-! ## The layers with the bias a vector -/

theorem layer0_cast (M : S50000x128.Idx → EReal) (nd : S50000x1.Idx → EReal) (W : S128x256.Idx → EReal) (b : S256.Idx → EReal) :
    GcnLaunch0.layer M nd W (shapeCast S1x256 b Facts₀.shapeCasts_S256_S1x256) = affineRelu M nd W b := by
  funext i
  obtain ⟨p, q, rfl⟩ : ∃ (p : Fin 50000) (q : Fin 256), i = ix2 p q := ⟨i 0, i 1, eq_ix2 i⟩
  show max (affineAt M nd W (shapeCast S1x256 b Facts₀.shapeCasts_S256_S1x256 (ix2 (0 : Fin 1) q)) p q) _ = max (affineAt M nd W (b (ix1 q)) p q) _
  rw [shapeCast_b_1b_apply]

theorem layer1_cast (M : S50000x256.Idx → EReal) (nd : S50000x1.Idx → EReal) (W : S256x256.Idx → EReal) (b : S256.Idx → EReal) :
    GcnLaunch1.layer M nd W (shapeCast S1x256 b Facts₀.shapeCasts_S256_S1x256) = affineRelu M nd W b := by
  funext i
  obtain ⟨p, q, rfl⟩ : ∃ (p : Fin 50000) (q : Fin 256), i = ix2 p q := ⟨i 0, i 1, eq_ix2 i⟩
  show max (affineAt M nd W (shapeCast S1x256 b Facts₀.shapeCasts_S256_S1x256 (ix2 (0 : Fin 1) q)) p q) _ = max (affineAt M nd W (b (ix1 q)) p q) _
  rw [shapeCast_b_1b_apply]

theorem layer2_cast (M : S50000x256.Idx → EReal) (nd : S50000x1.Idx → EReal) (W : S256x64.Idx → EReal) (b : S64.Idx → EReal) :
    GcnLaunch2.layer M nd W (shapeCast S1x64 b Facts₀.shapeCasts_S64_S1x64) = affine M nd W b := by
  funext i
  obtain ⟨p, q, rfl⟩ : ∃ (p : Fin 50000) (q : Fin 64), i = ix2 p q := ⟨i 0, i 1, eq_ix2 i⟩
  show affineAt M nd W (shapeCast S1x64 b Facts₀.shapeCasts_S64_S1x64 (ix2 (0 : Fin 1) q)) p q = affineAt M nd W (b (ix1 q)) p q
  rw [shapeCast_b_1b_apply]

/-! ## The result -/

/-- The first launch leaves the first hidden layer. -/
theorem v29_eq : V2 m ρ c main_v29 = hidden1 (m ((c : Thread nD τ).loc main_arg0)) (m ((c : Thread nD τ).loc main_arg1)) (m ((c : Thread nD τ).loc main_arg2)) (withLoops (m ((c : Thread nD τ).loc main_arg7))) (withLoops (m ((c : Thread nD τ).loc main_arg8))) := by
  rw [e2_v29, e1_v27, e1_v15, e1_arg1, e1_v28, layer0_cast]
  rfl

/-- What the second stretch and the second launch read of the first stretch's values. -/
theorem c2_v1 : V2 m ρ c main_v1 = (withLoops (m ((c : Thread nD τ).loc main_arg7))) := (e2_v1 m ρ c).trans (e1_v1 m ρ c)
theorem c2_v2 : V2 m ρ c main_v2 = (withLoops (m ((c : Thread nD τ).loc main_arg8))) := (e2_v2 m ρ c).trans (e1_v2 m ρ c)
theorem c2_v12 : V2 m ρ c main_v12 = degNorm (withLoops (m ((c : Thread nD τ).loc main_arg7))) := (e2_v12 m ρ c).trans (e1_v12 m ρ c)
theorem c2_v15 : V2 m ρ c main_v15 = degNorm (withLoops (m ((c : Thread nD τ).loc main_arg8))) := (e2_v15 m ρ c).trans (e1_v15 m ρ c)

/-- The second aggregation. -/
theorem v41_eq : V3 m ρ c main_v41 = agg256 (hidden1 (m ((c : Thread nD τ).loc main_arg0)) (m ((c : Thread nD τ).loc main_arg1)) (m ((c : Thread nD τ).loc main_arg2)) (withLoops (m ((c : Thread nD τ).loc main_arg7))) (withLoops (m ((c : Thread nD τ).loc main_arg8)))) (degNorm (withLoops (m ((c : Thread nD τ).loc main_arg7)))) (withLoops (m ((c : Thread nD τ).loc main_arg7))) (withLoops (m ((c : Thread nD τ).loc main_arg8))) := by
  rw [e3_v41, v29_eq, c2_v12, c2_v1, c2_v2]

theorem c3_v15 : V3 m ρ c main_v15 = degNorm (withLoops (m ((c : Thread nD τ).loc main_arg8))) := (e3_v15 m ρ c).trans (c2_v15 m ρ c)
theorem c3_arg3 : V3 m ρ c main_arg3 = (m ((c : Thread nD τ).loc main_arg3)) := (e3_arg3 m ρ c).trans ((e2_arg3 m ρ c).trans (e1_arg3 m ρ c))
theorem c3_v42 : V3 m ρ c main_v42 = shapeCast S1x256 (m ((c : Thread nD τ).loc main_arg4)) Facts₀.shapeCasts_S256_S1x256 := by
  rw [e3_v42, e2_arg4, e1_arg4]

/-- The second launch leaves the second hidden layer. -/
theorem v43_eq : V4 m ρ c main_v43 = hidden2 (hidden1 (m ((c : Thread nD τ).loc main_arg0)) (m ((c : Thread nD τ).loc main_arg1)) (m ((c : Thread nD τ).loc main_arg2)) (withLoops (m ((c : Thread nD τ).loc main_arg7))) (withLoops (m ((c : Thread nD τ).loc main_arg8)))) (m ((c : Thread nD τ).loc main_arg3)) (m ((c : Thread nD τ).loc main_arg4)) (withLoops (m ((c : Thread nD τ).loc main_arg7))) (withLoops (m ((c : Thread nD τ).loc main_arg8))) := by
  rw [e4_v43, v41_eq, c3_v15, c3_arg3, c3_v42, layer1_cast]
  rfl

theorem c4_v1 : V4 m ρ c main_v1 = (withLoops (m ((c : Thread nD τ).loc main_arg7))) := (e4_v1 m ρ c).trans ((e3_v1 m ρ c).trans (c2_v1 m ρ c))
theorem c4_v2 : V4 m ρ c main_v2 = (withLoops (m ((c : Thread nD τ).loc main_arg8))) := (e4_v2 m ρ c).trans ((e3_v2 m ρ c).trans (c2_v2 m ρ c))
theorem c4_v12 : V4 m ρ c main_v12 = degNorm (withLoops (m ((c : Thread nD τ).loc main_arg7))) := (e4_v12 m ρ c).trans ((e3_v12 m ρ c).trans (c2_v12 m ρ c))
theorem c4_v15 : V4 m ρ c main_v15 = degNorm (withLoops (m ((c : Thread nD τ).loc main_arg8))) := (e4_v15 m ρ c).trans (c3_v15 m ρ c)
theorem c4_arg5 : V4 m ρ c main_arg5 = (m ((c : Thread nD τ).loc main_arg5)) :=
  (e4_arg5 m ρ c).trans ((e3_arg5 m ρ c).trans ((e2_arg5 m ρ c).trans (e1_arg5 m ρ c)))
theorem c4_arg6 : V4 m ρ c main_arg6 = (m ((c : Thread nD τ).loc main_arg6)) :=
  (e4_arg6 m ρ c).trans ((e3_arg6 m ρ c).trans ((e2_arg6 m ρ c).trans (e1_arg6 m ρ c)))

/-- The third aggregation. -/
theorem v55_eq : V5 m ρ c main_v55 = agg256 (hidden2 (hidden1 (m ((c : Thread nD τ).loc main_arg0)) (m ((c : Thread nD τ).loc main_arg1)) (m ((c : Thread nD τ).loc main_arg2)) (withLoops (m ((c : Thread nD τ).loc main_arg7))) (withLoops (m ((c : Thread nD τ).loc main_arg8)))) (m ((c : Thread nD τ).loc main_arg3)) (m ((c : Thread nD τ).loc main_arg4)) (withLoops (m ((c : Thread nD τ).loc main_arg7))) (withLoops (m ((c : Thread nD τ).loc main_arg8)))) (degNorm (withLoops (m ((c : Thread nD τ).loc main_arg7)))) (withLoops (m ((c : Thread nD τ).loc main_arg7))) (withLoops (m ((c : Thread nD τ).loc main_arg8))) := by
  rw [e5_v55, v43_eq, c4_v12, c4_v1, c4_v2]

theorem c5_v15 : V5 m ρ c main_v15 = degNorm (withLoops (m ((c : Thread nD τ).loc main_arg8))) := (e5_v15 m ρ c).trans (c4_v15 m ρ c)
theorem c5_arg5 : V5 m ρ c main_arg5 = (m ((c : Thread nD τ).loc main_arg5)) := (e5_arg5 m ρ c).trans (c4_arg5 m ρ c)
theorem c5_v56 : V5 m ρ c main_v56 = shapeCast S1x64 (m ((c : Thread nD τ).loc main_arg6)) Facts₀.shapeCasts_S64_S1x64 := by
  rw [e5_v56, c4_arg6]

/-- The result buffer ends at the network of the launch contents of the arguments. -/
theorem result_eq : W6 m ρ c (Proc.devRef .tc main_v57)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [e6_v57, v55_eq, c5_v15, c5_arg5, c5_v56, layer2_cast]
  rfl

end Cert.KernelIdeal.GcnValue

end
-- ==== Proof.RefValue.lean ====
/-
  What the plain program computes, as the network of its arguments.

  The plain program is read one operation at a time.  Its edge lists with self-loops, its degree columns and its
  aggregations are the shared stages, operation for operation.  Each of its layers — scale by the target-side
  column spread over the features, contract with the weights, add the bias spread over the rows, and for the first
  two take the maximum with a spread zero — read at an entry is the layer's expression (the lemma on whole-array
  computations).  Composed, the result is the network.
-/
import proofs.«162387_j47571057770576_1_alg».proof.Proof.Gen.ReferenceIdeal.Read
import proofs.«162387_j47571057770576_1_alg».proof.Proof.Stages

set_option maxRecDepth 16384

noncomputable section

namespace Cert.ReferenceIdeal.GcnRef

open Cert.ReferenceIdeal Cert.ReferenceIdeal.Read Cert.Gcn Cert.LibPlainDot
open Idealize.ShloMosaic Idealize.ShloMosaic.TcCoe Idealize.ShloMosaic.ValueIdx Idealize.SL.Sem
open Cert.KernelIdeal.Stages (withLoops degNorm wrapped agg128 agg256 hidden1 hidden2 outLayer net)

variable (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x64, .f32⟩ : BufTy).Contents (Elt Ideal)) (x6 : (⟨S64, .f32⟩ : BufTy).Contents (Elt Ideal)) (x7 : (⟨S800000, .i32⟩ : BufTy).Contents (Elt Ideal)) (x8 : (⟨S800000, .i32⟩ : BufTy).Contents (Elt Ideal))

/-! ## The shared stages -/

theorem r_v1 : val_main_v1 (F := Ideal) x7 = withLoops x7 := rfl
theorem r_v2 : val_main_v2 (F := Ideal) x8 = withLoops x8 := rfl
theorem r_v12 : val_main_v12 (F := Ideal) x7 = degNorm (val_main_v1 (F := Ideal) x7) := rfl
theorem r_v15 : val_main_v15 (F := Ideal) x8 = degNorm (val_main_v2 (F := Ideal) x8) := rfl
theorem r_v27 : val_main_v27 (F := Ideal) x0 x7 x8 = agg128 x0 (val_main_v12 (F := Ideal) x7) (val_main_v1 (F := Ideal) x7) (val_main_v2 (F := Ideal) x8) := rfl
theorem r_v46 : val_main_v46 (F := Ideal) x0 x1 x2 x7 x8 = agg256 (val_main_v34 (F := Ideal) x0 x1 x2 x7 x8) (val_main_v12 (F := Ideal) x7) (val_main_v1 (F := Ideal) x7) (val_main_v2 (F := Ideal) x8) := rfl
theorem r_v65 : val_main_v65 (F := Ideal) x0 x1 x2 x3 x4 x7 x8 = agg256 (val_main_v53 (F := Ideal) x0 x1 x2 x3 x4 x7 x8) (val_main_v12 (F := Ideal) x7) (val_main_v1 (F := Ideal) x7) (val_main_v2 (F := Ideal) x8) := rfl

/-! ## The layers -/

theorem plain1 : Plain dot_S50000x128_S128x256_S50000x256_1_0_0_1_n_n := ⟨rfl, rfl, rfl, rfl, rfl, rfl⟩
theorem plain2 : Plain dot_S50000x256_S256x256_S50000x256_1_0_0_1_n_n := ⟨rfl, rfl, rfl, rfl, rfl, rfl⟩
theorem plain3 : Plain dot_S50000x256_S256x64_S50000x64_1_0_0_1_n_n := ⟨rfl, rfl, rfl, rfl, rfl, rfl⟩

/-- The maximum with a spread zero, read at an entry. -/
theorem relu_apply {s : Shape} (x : FVec Ideal s .f32) (h : (⟨0, ![]⟩ : Shape).BroadcastsInDim s ![]) (j : s.Idx) :
    maximumf x (broadcastInDim s ![] h (constant (F := Ideal) ⟨0, ![]⟩ .f32 0x00000000#32)) j
      = max (x j) (Ideal.ofBits .f32 0x00000000#32) := rfl

theorem r_v34 : val_main_v34 (F := Ideal) x0 x1 x2 x7 x8 = affineRelu (val_main_v27 (F := Ideal) x0 x7 x8) (val_main_v15 (F := Ideal) x8) x1 x2 := by
  funext i
  obtain ⟨p, q, rfl⟩ : ∃ (p : Fin 50000) (q : Fin 256), i = ix2 p q := ⟨i 0, i 1, eq_ix2 i⟩
  unfold val_main_v34 val_main_call0_v0 val_main_call0_cst
  refine (relu_apply _ _ _).trans ?_
  unfold val_main_v33 val_main_v32 val_main_v31 val_main_v30 val_main_v29 val_main_v28 affineRelu affine
  exact congrArg (fun z => max z (Ideal.ofBits .f32 0x00000000#32))
    (host_affine_apply plain1 (val_main_v27 (F := Ideal) x0 x7 x8) (val_main_v15 (F := Ideal) x8) x1 x2 _ _ _ p q)

theorem r_v53 : val_main_v53 (F := Ideal) x0 x1 x2 x3 x4 x7 x8 = affineRelu (val_main_v46 (F := Ideal) x0 x1 x2 x7 x8) (val_main_v15 (F := Ideal) x8) x3 x4 := by
  funext i
  obtain ⟨p, q, rfl⟩ : ∃ (p : Fin 50000) (q : Fin 256), i = ix2 p q := ⟨i 0, i 1, eq_ix2 i⟩
  unfold val_main_v53 val_main_call1_v0 val_main_call1_cst
  refine (relu_apply _ _ _).trans ?_
  unfold val_main_v52 val_main_v51 val_main_v50 val_main_v49 val_main_v48 val_main_v47 affineRelu affine
  exact congrArg (fun z => max z (Ideal.ofBits .f32 0x00000000#32))
    (host_affine_apply plain2 (val_main_v46 (F := Ideal) x0 x1 x2 x7 x8) (val_main_v15 (F := Ideal) x8) x3 x4 _ _ _ p q)

theorem r_v71 : val_main_v71 (F := Ideal) x0 x1 x2 x3 x4 x5 x6 x7 x8 = affine (val_main_v65 (F := Ideal) x0 x1 x2 x3 x4 x7 x8) (val_main_v15 (F := Ideal) x8) x5 x6 := by
  funext i
  obtain ⟨p, q, rfl⟩ : ∃ (p : Fin 50000) (q : Fin 64), i = ix2 p q := ⟨i 0, i 1, eq_ix2 i⟩
  unfold val_main_v71 val_main_v70 val_main_v69 val_main_v68 val_main_v67 val_main_v66
  exact host_affine_apply plain3 (val_main_v65 (F := Ideal) x0 x1 x2 x3 x4 x7 x8) (val_main_v15 (F := Ideal) x8) x5 x6 _ _ _ p q

/-! ## The result -/

theorem n_v12 : val_main_v12 (F := Ideal) x7 = degNorm (withLoops x7) := (r_v12 x7).trans (congrArg degNorm (r_v1 x7))
theorem n_v15 : val_main_v15 (F := Ideal) x8 = degNorm (withLoops x8) := (r_v15 x8).trans (congrArg degNorm (r_v2 x8))

theorem n_v34 : val_main_v34 (F := Ideal) x0 x1 x2 x7 x8 = hidden1 x0 x1 x2 (withLoops x7) (withLoops x8) := by
  rw [r_v34, r_v27, n_v15, n_v12, r_v1, r_v2]
  rfl

theorem n_v53 : val_main_v53 (F := Ideal) x0 x1 x2 x3 x4 x7 x8 = hidden2 (hidden1 x0 x1 x2 (withLoops x7) (withLoops x8)) x3 x4 (withLoops x7) (withLoops x8) := by
  rw [r_v53, r_v46, n_v34, n_v15, n_v12, r_v1, r_v2]
  rfl

/-- The plain program's result term is the network of the arguments. -/
theorem val_eq_net : val_main_v71 (F := Ideal) x0 x1 x2 x3 x4 x5 x6 x7 x8 = net x0 x1 x2 x3 x4 x5 x6 x7 x8 := by
  rw [r_v71, r_v65, n_v53, n_v15, n_v12, r_v1, r_v2]
  rfl

end Cert.ReferenceIdeal.GcnRef

end
-- ==== Proof.lean ====
/-
  The certificate of the three-layer graph network: the tiled program against the plain one.

  Frames.  The two tiled programs' frames are the generated ones.  The plain program has no kernel: its frame is its run
  with the result dropped.

  The idealized tiled program is the tiled program's own text read on the extended reals: nothing was rewritten, so
  there is nothing to preserve.

  Values.  Both programs compute, on the extended reals, the same function of the arguments — the network (Stages):
  the degree columns, three times an aggregation over the edges followed by a layer.  The aggregations are the same
  operations in both programs and are never opened.  A layer is, at node `p` and feature `q`,
  `Σ_k (M (p, k) · nd p) · W (k, q) + b q`, rectified in the first two layers; the tiled program computes it block of rows
  by block of rows inside a launch, the plain program on whole arrays, and read at an entry the two agree term for
  term (Dense), with no law of arithmetic involved, so the inputs' finiteness is not used.  The tiled program's result is
  read off its run boundary by boundary (KernelRun, Launch0–2, KernelValue), the plain program's off its operations
  (RefValue).
-/
import proofs.«162387_j47571057770576_1_alg».proof.Defs
import proofs.«162387_j47571057770576_1_alg».proof.Proof.Gen.Kernel
import proofs.«162387_j47571057770576_1_alg».proof.Proof.Gen.Kernel.Skeleton
import proofs.«162387_j47571057770576_1_alg».proof.Proof.Gen.Kernel.Launch
import proofs.«162387_j47571057770576_1_alg».proof.Proof.Gen.Kernel.Points
import proofs.«162387_j47571057770576_1_alg».proof.Proof.Gen.Kernel.Frame
import proofs.«162387_j47571057770576_1_alg».proof.Proof.Gen.KernelIdeal
import proofs.«162387_j47571057770576_1_alg».proof.Proof.Gen.KernelIdeal.Skeleton
import proofs.«162387_j47571057770576_1_alg».proof.Proof.Gen.KernelIdeal.Launch
import proofs.«162387_j47571057770576_1_alg».proof.Proof.Gen.KernelIdeal.Points
import proofs.«162387_j47571057770576_1_alg».proof.Proof.Gen.KernelIdeal.Frame
import proofs.«162387_j47571057770576_1_alg».proof.Proof.Gen.ReferenceIdeal
import proofs.«162387_j47571057770576_1_alg».proof.Proof.Gen.Pre_finite_inputs
import proofs.«162387_j47571057770576_1_alg».proof.Proof.Gen.ReferenceIdeal.Run
import proofs.«162387_j47571057770576_1_alg».proof.Proof.Gen.ReferenceIdeal.Read
import proofs.«162387_j47571057770576_1_alg».proof.Proof.KernelRun
import proofs.«162387_j47571057770576_1_alg».proof.Proof.KernelValue
import proofs.«162387_j47571057770576_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the arguments, and the arguments agree. -/
theorem algebraic : Cert.algebraic_KernelIdeal_ReferenceIdeal := by
  intro m ρ m' ρ' _ hagree
  refine ⟨fun c => Cert.KernelIdeal.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.GcnValue.result_eq m ρ c), (h c).2⟩)
      (Cert.KernelIdeal.GcnRun.run_value m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v71_eq, Cert.ReferenceIdeal.GcnRef.val_eq_net, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
